-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S400000 : Shape := ⟨1, ![400000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg9 : FVec F S128x384 .f32) (main_arg10 : FVec F S384 .f32) (main_v33 : IVec S_ 1) : IVec S_ 1 :=
  let main_v34 : FVec F S128x384 .f32 := Host.absf main_arg9
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg10
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x384 .f32) (main_arg9 : FVec F S128x384 .f32) (main_arg10 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x384 .f32 := Host.absf main_arg8
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg9 main_arg10 main_v33

def fn {F : FTy → Type} [FloatOps F] (main_arg0 : FVec F S400000x128 .f32) (main_arg1 : FVec F S400000x128 .f32) (main_arg2 : FVec F S400000x128 .f32) (main_arg3 : IVec S400000 32) (main_arg4 : IVec S400000 32) (main_arg5 : FVec F S128x128 .f32) (main_arg6 : FVec F S128x128 .f32) (main_arg7 : FVec F S128 .f32) (main_arg8 : FVec F S128x384 .f32) (main_arg9 : FVec F S128x384 .f32) (main_arg10 : FVec F S384 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S400000x128 : Shape := ⟨2, ![400000, 128]⟩
abbrev S400000 : Shape := ⟨1, ![400000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S400000x256 : Shape := ⟨2, ![400000, 256]⟩
abbrev S_ : Shape := ⟨0, ![]⟩
abbrev S400000x1 : Shape := ⟨2, ![400000, 1]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S3200x128 : Shape := ⟨2, ![3200, 128]⟩
abbrev S3200x256 : Shape := ⟨2, ![3200, 256]⟩
abbrev S3200x512 : Shape := ⟨2, ![3200, 512]⟩

abbrev nBuf : Space → Nat
  | .hbm => 32
  | .vmem => 8
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S400000, .i32⟩
  | .hbm, ⟨4, _⟩ => ⟨S400000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x384, .f32⟩
  | .hbm, ⟨9, _⟩ => ⟨S128x384, .f32⟩
  | .hbm, ⟨10, _⟩ => ⟨S384, .f32⟩
  | .hbm, ⟨11, _⟩ => ⟨S400000x256, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x256, .f32⟩
  | .hbm, ⟨21, _⟩ => ⟨S_, .f32⟩
  | .hbm, ⟨22, _⟩ => ⟨S400000x256, .f32⟩
  | .hbm, ⟨23, _⟩ => ⟨S400000x1, .i32⟩
  | .hbm, ⟨24, _⟩ => ⟨S400000x256, .f32⟩
  | .hbm, ⟨25, _⟩ => ⟨S128x512, .f32⟩
  | .hbm, ⟨26, _⟩ => ⟨S128x512, .f32⟩
  | .hbm, ⟨27, _⟩ => ⟨S256x512, .f32⟩
  | .hbm, ⟨28, _⟩ => ⟨S256x512, .bf16⟩
  | .hbm, ⟨29, _⟩ => ⟨S512, .f32⟩
  | .hbm, ⟨30, _⟩ => ⟨S1x512, .f32⟩
  | .hbm, ⟨31, _⟩ => ⟨S400000x256, .f32⟩
  | .local _ .vmem, ⟨0, _⟩ => ⟨S3200x128, .f32⟩
  | .local _ .vmem, ⟨1, _⟩ => ⟨S3200x128, .f32⟩
  | .local _ .vmem, ⟨2, _⟩ => ⟨S3200x256, .f32⟩
  | .local _ .vmem, ⟨3, _⟩ => ⟨S3200x256, .f32⟩
  | .local _ .vmem, ⟨4, _⟩ => ⟨S256x512, .bf16⟩
  | .local _ .vmem, ⟨5, _⟩ => ⟨S1x512, .f32⟩
  | .local _ .vmem, ⟨6, _⟩ => ⟨S3200x256, .f32⟩
  | .local _ .vmem, ⟨7, _⟩ => ⟨S3200x256, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S400000x128_S400000x128_S400000x256_d1 : Shape.Concatenates [S400000x128, S400000x128] S400000x256 1
  bcast_S_S400000 : S_.BroadcastsInDim S400000 (![] : Fin 0 → Fin S400000.rank)
  bcast_S400000_S400000x1_0 : S400000.BroadcastsInDim S400000x1 (![0] : Fin 1 → Fin S400000x1.rank)
  bcast_S_S400000x256 : S_.BroadcastsInDim S400000x256 (![] : Fin 0 → Fin S400000x256.rank)
  concatenates_S128x128_S128x384_S128x512_d1 : Shape.Concatenates [S128x128, S128x384] S128x512 1
  concatenates_S128x512_S128x512_S256x512_d0 : Shape.Concatenates [S128x512, S128x512] S256x512 0
  bitsLt_bf16_f32 : FTy.bits .bf16 < FTy.bits .f32
  concatenates_S128_S384_S512_d0 : Shape.Concatenates [S128, S384] S512 0
  shapeCasts_S512_S1x512 : S512.ShapeCasts S1x512
  inb_S3200x128_S3200x128_0_0 : ∀ a, (![0, 0] : Fin 2 → Nat) a + S3200x128.size a ≤ S3200x128.size a
  h_S3200x128 : 0 < S3200x128.numel
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  slices_S3200x256_o0_0_S3200x128 : S3200x256.Slices ![0, 0] S3200x128
  slices_S3200x256_o0_128_S3200x128 : S3200x256.Slices ![0, 128] S3200x128
  concatenates_S3200x128_S3200x128_S3200x256_d1 : Shape.Concatenates [S3200x128, S3200x128] S3200x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S3200x512 : S1x512.Broadcasts S3200x512
  slices_S3200x512_o0_0_S3200x128 : S3200x512.Slices ![0, 0] S3200x128
  slices_S3200x512_o0_128_S3200x128 : S3200x512.Slices ![0, 128] S3200x128
  slices_S3200x512_o0_256_S3200x128 : S3200x512.Slices ![0, 256] S3200x128
  slices_S3200x512_o0_384_S3200x128 : S3200x512.Slices ![0, 384] S3200x128
  inb_S3200x256_S3200x128_0_0 : ∀ a, (![0, 0] : Fin 2 → Nat) a + S3200x128.size a ≤ S3200x256.size a
  inb_S3200x256_S3200x128_0_128 : ∀ a, (![0, 128] : Fin 2 → Nat) a + S3200x128.size a ≤ S3200x256.size a
  gather_S400000x256_S400000x1_S400000x256_1_0_n_n_0_1_1256_wf : GatherDims.WF S400000x256 S400000x1 S400000x256 [1] [0] [] [0] [] 1 ![1, 256]
  scatter_S400000x256_S400000x1_S400000x256_1_0_0_1_wf : ScatterDims.WF S400000x256 S400000x1 S400000x256 [1] [0] [0] 1
  dot_S3200x256_S256x512_S3200x512_1_0_0_1_n_n_wf : DotDims.WF S3200x256 S256x512 S3200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .f32 = 32 ∨ (Rect.block (s := S400000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S400000x256.size a
  hwx0_1 : ∀ i : grid0.Coords, EltTy.bits .f32 = 32 ∨ (Rect.block (s := S400000x256) S3200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x256.size a ≤ S400000x256.size a
  hwx0_4 : ∀ i : grid0.Coords, EltTy.bits .f32 = 32 ∨ (Rect.block (s := S400000x256) S3200x256.size (cc0_transform_4 i) (hinb0_4 i)).WholeWords (EltTy.packing .f32)

variable [Facts₀]

def gather_S400000x256_S400000x1_S400000x256_1_0_n_n_0_1_1256 : GatherDims S400000x256 S400000x1 S400000x256 where
  offsetDims := [1]
  collapsedSliceDims := [0]
  operandBatchingDims := []
  startIndicesBatchingDims := []
  startIndexMap := [0]
  indexVectorDim := 1
  sliceSizes := ![1, 256]
  wf := gather_S400000x256_S400000x1_S400000x256_1_0_n_n_0_1_1256_wf
def scatter_S400000x256_S400000x1_S400000x256_1_0_0_1 : ScatterDims S400000x256 S400000x1 S400000x256 where
  updateWindowDims := [1]
  insertedWindowDims := [0]
  scatterDimsToOperandDims := [0]
  indexVectorDim := 1
  wf := scatter_S400000x256_S400000x1_S400000x256_1_0_0_1_wf
def dot_S3200x256_S256x512_S3200x512_1_0_0_1_n_n : DotDims S3200x256 S256x512 S3200x512 where
  lhsContracting := [1]
  rhsContracting := [0]
  lhsNonContracting := [0]
  rhsNonContracting := [1]
  lhsBatch := []
  rhsBatch := []
  wf := dot_S3200x256_S256x512_S3200x512_1_0_0_1_n_n_wf

abbrev win0_0 : Pipeline.Window sig grid0 :=
  Pipeline.Window.ofSpec (Memref.whole main_arg0) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S3200x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S400000x128 : Shape := ⟨2, ![400000, 128]⟩
abbrev S400000 : Shape := ⟨1, ![400000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S_ : Shape := ⟨0, ![]⟩
abbrev S400000x1 : Shape := ⟨2, ![400000, 1]⟩
abbrev S1x128 : Shape := ⟨2, ![1, 128]⟩
abbrev S400000x384 : Shape := ⟨2, ![400000, 384]⟩
abbrev S1x384 : Shape := ⟨2, ![1, 384]⟩
abbrev S400000x256 : Shape := ⟨2, ![400000, 256]⟩

abbrev nBuf : Space → Nat
  | .hbm => 83
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S400000, .i32⟩
  | .hbm, ⟨4, _⟩ => ⟨S400000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x384, .f32⟩
  | .hbm, ⟨9, _⟩ => ⟨S128x384, .f32⟩
  | .hbm, ⟨10, _⟩ => ⟨S384, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x128, .f32⟩
  | .hbm, ⟨20, _⟩ => ⟨S_, .f32⟩
  | .hbm, ⟨21, _⟩ => ⟨S400000x128, .f32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S_, .f32⟩
  | .hbm, ⟨34, _⟩ => ⟨S400000x128, .f32⟩
  | .hbm, ⟨35, _⟩ => ⟨S400000x1, .i32⟩
  | .hbm, ⟨36, _⟩ => ⟨S400000x128, .f32⟩
  | .hbm, ⟨37, _⟩ => ⟨S400000x128, .f32⟩
  | .hbm, ⟨38, _⟩ => ⟨S400000x128, .f32⟩
  | .hbm, ⟨39, _⟩ => ⟨S400000x128, .f32⟩
  | .hbm, ⟨40, _⟩ => ⟨S1x128, .f32⟩
  | .hbm, ⟨41, _⟩ => ⟨S400000x128, .f32⟩
  | .hbm, ⟨42, _⟩ => ⟨S400000x128, .f32⟩
  | .hbm, ⟨43, _⟩ => ⟨S400000x128, .f32⟩
  | .hbm, ⟨44, _⟩ => ⟨S400000x128, .f32⟩
  | .hbm, ⟨45, _⟩ => ⟨S_, .f32⟩
  | .hbm, ⟨46, _⟩ => ⟨S400000x128, .f32⟩
  | .hbm, ⟨47, _⟩ => ⟨S400000x128, .f32⟩
  | .hbm, ⟨48, _⟩ => ⟨S_, .f32⟩
  | .hbm, ⟨49, _⟩ => ⟨S400000x128, .f32⟩
  | .hbm, ⟨50, _⟩ => ⟨S400000x128, .f32⟩
  | .hbm, ⟨51, _⟩ => ⟨S400000x384, .f32⟩
  | .hbm, ⟨52, _⟩ => ⟨S400000x384, .f32⟩
  | .hbm, ⟨53, _⟩ => ⟨S400000x384, .f32⟩
  | .hbm, ⟨54, _⟩ => ⟨S1x384, .f32⟩
  | .hbm, ⟨55, _⟩ => ⟨S400000x384, .f32⟩
  | .hbm, ⟨56, _⟩ => ⟨S400000x384, .f32⟩
  | .hbm, ⟨57, _⟩ => ⟨S400000x128, .f32⟩
  | .hbm, ⟨58, _⟩ => ⟨S400000x128, .f32⟩
  | .hbm, ⟨59, _⟩ => ⟨S400000x128, .f32⟩
  | .hbm, ⟨60, _⟩ => ⟨S400000x128, .f32⟩
  | .hbm, ⟨61, _⟩ => ⟨S400000x128, .f32⟩
  | .hbm, ⟨62, _⟩ => ⟨S400000x128, .f32⟩
  | .hbm, ⟨63, _⟩ => ⟨S_, .f32⟩
  | .hbm, ⟨64, _⟩ => ⟨S400000x128, .f32⟩
  | .hbm, ⟨65, _⟩ => ⟨S400000x128, .f32⟩
  | .hbm, ⟨66, _⟩ => ⟨S_, .f32⟩
  | .hbm, ⟨67, _⟩ => ⟨S400000x128, .f32⟩
  | .hbm, ⟨68, _⟩ => ⟨S400000x128, .f32⟩
  | .hbm, ⟨69, _⟩ => ⟨S400000x128, .f32⟩
  | .hbm, ⟨70, _⟩ => ⟨S400000x128, .f32⟩
  | .hbm, ⟨71, _⟩ => ⟨S400000x128, .f32⟩
  | .hbm, ⟨72, _⟩ => ⟨S400000x128, .f32⟩
  | .hbm, ⟨73, _⟩ => ⟨S400000x128, .f32⟩
  | .hbm, ⟨74, _⟩ => ⟨S_, .f32⟩
  | .hbm, ⟨75, _⟩ => ⟨S400000x128, .f32⟩
  | .hbm, ⟨76, _⟩ => ⟨S400000x128, .f32⟩
  | .hbm, ⟨77, _⟩ => ⟨S_, .f32⟩
  | .hbm, ⟨78, _⟩ => ⟨S400000x128, .f32⟩
  | .hbm, ⟨79, _⟩ => ⟨S400000x128, .f32⟩
  | .hbm, ⟨80, _⟩ => ⟨S400000x128, .f32⟩
  | .hbm, ⟨81, _⟩ => ⟨S400000x128, .f32⟩
  | .hbm, ⟨82, _⟩ => ⟨S400000x256, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x128 : S_.BroadcastsInDim S400000x128 (![] : Fin 0 → Fin S400000x128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  concatenates_S400000x128_S400000x128_S400000x256_d1 : Shape.Concatenates [S400000x128, S400000x128] S400000x256 1
  gather_S400000x128_S400000x1_S400000x128_1_0_n_n_0_1_1128_wf : GatherDims.WF S400000x128 S400000x1 S400000x128 [1] [0] [] [0] [] 1 ![1, 128]
  scatter_S400000x128_S400000x1_S400000x128_1_0_0_1_wf : ScatterDims.WF S400000x128 S400000x1 S400000x128 [1] [0] [0] 1
  dot_S400000x128_S128x128_S400000x128_1_0_0_1_n_n_wf : DotDims.WF S400000x128 S128x128 S400000x128 [1] [0] [0] [1] [] []
  dot_S400000x128_S128x384_S400000x384_1_0_0_1_n_n_wf : DotDims.WF S400000x128 S128x384 S400000x384 [1] [0] [0] [1] [] []

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf

class Facts : Prop extends Facts₀ where

variable [Facts]
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.Cell.lean ====
/-
  The Child-Sum Tree-LSTM cell as one function of the argument arrays, index by index, on the extended reals.

  A node n has an input row x(n, ·), and its children's hidden and memory rows are summed into h̃(n, ·) and c̃(n, ·):
  edge e contributes row r(e) of h (of c) to the node par(e) names. With the gate pre-activations

      pre_W,U,b(j) = (Σ_k x(n,k)·W(k,j) + Σ_k h̃(n,k)·U(k,j)) + b(j)

  — f from (W_f, U_f, b_f), and i, o, u the three 128-column thirds of (W_iou, U_iou, b_iou) — the cell is

      c'(n,j) = σ(i_j)·tanh(u_j) + σ(f_j)·c̃(n,j),      h'(n,j) = σ(o_j)·tanh(c'(n,j)),

  and the result row is h'(n, ·) followed by c'(n, ·). Also here: a sum over 256 = 128 + 128 indices is the sum over
  the first 128 plus the sum over the last 128 (addition of extended reals is commutative and associative, so this needs
  no finiteness), which is what joins one 256-deep contraction to two 128-deep ones.
-/
import Idealize.ShloMosaic.PureOps.Ideal
import Idealize.ShloMosaic.Lib.ValueIdx

noncomputable section

open scoped BigOperators

namespace Cert.TreeCell

open Idealize.ShloMosaic Idealize.ShloMosaic.ValueIdx

/-- A matrix of extended reals with literal extents. -/
abbrev Mat (a b : Nat) := (⟨2, ![a, b]⟩ : Shape).Idx → EReal
/-- A vector of extended reals with a literal extent. -/
abbrev Vc (a : Nat) := (⟨1, ![a]⟩ : Shape).Idx → EReal

/-- The children's rows summed into node `n`: over the edges `e` whose parent index `par e` is `n`, row `row e` of
    `a`, at column `k`. An edge whose parent index names no node contributes to no sum. -/
def segSum (a : Mat 400000 128) (row : Fin 400000 → Fin 400000) (par : Fin 400000 → Int) (n : Fin 400000)
    (k : Fin 128) : EReal :=
  ∑ e ∈ Finset.univ.filter (fun e : Fin 400000 => par e = (n.val : Int)), a (ix2 (row e) k)

/-- One gate's pre-activation at column `j` of an `m`-column gate block: the input row times `W`, plus the summed
    hidden row times `U`, plus the bias. -/
def pre {m : Nat} (xr hr : Fin 128 → EReal) (W U : Mat 128 m) (b : Vc m) (j : Fin m) : EReal :=
  ((∑ k : Fin 128, xr k * W (ix2 k j)) + ∑ k : Fin 128, hr k * U (ix2 k j)) + b (ix1 j)

section
variable (xr hr cr : Fin 128 → EReal) (Wf Uf : Mat 128 128) (bf : Vc 128) (Wi Ui : Mat 128 384) (bi : Vc 384)

/-- The new memory: σ(i)·tanh(u) + σ(f)·c̃; the i, o, u gates are columns j, 128 + j, 256 + j of the iou block. -/
def cNew (j : Fin 128) : EReal :=
  Ideal.logistic (pre xr hr Wi Ui bi ⟨j.val, by omega⟩) * Ideal.tanh (pre xr hr Wi Ui bi ⟨256 + j.val, by omega⟩)
    + Ideal.logistic (pre xr hr Wf Uf bf j) * cr j

/-- The new hidden state: σ(o)·tanh(c'). -/
def hNew (j : Fin 128) : EReal :=
  Ideal.logistic (pre xr hr Wi Ui bi ⟨128 + j.val, by omega⟩) * Ideal.tanh (cNew xr hr cr Wf Uf bf Wi Ui bi j)

/-- A node's result row: h' in columns 0–127, c' in columns 128–255. -/
def outRow (col : Fin 256) : EReal :=
  if h : col.val < 128 then hNew xr hr cr Wf Uf bf Wi Ui bi ⟨col.val, h⟩
  else cNew xr hr cr Wf Uf bf Wi Ui bi ⟨col.val - 128, by omega⟩

theorem outRow_left (j : Fin 128) (col : Fin 256) (h : col.val = j.val) :
    outRow xr hr cr Wf Uf bf Wi Ui bi col = hNew xr hr cr Wf Uf bf Wi Ui bi j := by
  unfold outRow
  rw [dif_pos (by omega)]
  congr 1; exact Fin.ext h

theorem outRow_right (j : Fin 128) (col : Fin 256) (h : col.val = 128 + j.val) :
    outRow xr hr cr Wf Uf bf Wi Ui bi col = cNew xr hr cr Wf Uf bf Wi Ui bi j := by
  unfold outRow
  rw [dif_neg (by omega)]
  congr 1; exact Fin.ext (by simp only; omega)

end

/-- THE CELL over the whole arrays: row `n` of the result from row `n` of `x` and the children's sums into `n`. -/
def G (x h c : Mat 400000 128) (row : Fin 400000 → Fin 400000) (par : Fin 400000 → Int)
    (Wf Uf : Mat 128 128) (bf : Vc 128) (Wi Ui : Mat 128 384) (bi : Vc 384) : Mat 400000 256 :=
  fun i => outRow (fun k => x (ix2 (i 0) k)) (fun k => segSum h row par (i 0) k) (fun k => segSum c row par (i 0) k)
    Wf Uf bf Wi Ui bi (i 1)

/-- A sum over 256 indices is the sum over the first 128 plus the sum over the last 128. -/
theorem sum_256_split (f : Fin 256 → EReal) :
    ∑ k : Fin 256, f k = (∑ k : Fin 128, f ⟨k.val, by omega⟩) + ∑ k : Fin 128, f ⟨128 + k.val, by omega⟩ := by
  have h := Fin.sum_univ_add (M := EReal) (a := 128) (b := 128) f
  rw [h]
  rfl

end Cert.TreeCell

end
-- ==== Proof.KernelPayload.lean ====
/-
  The kernel body's arithmetic at one element of a row tile.

  A tile has 3200 rows. The body joins the input rows x (128 columns) and the first 128 columns of the summed
  children's rows into one 256-column operand, multiplies it by the 256 × 512 matrix whose upper half is [W_f | W_iou]
  and lower half [U_f | U_iou], and adds the 512-entry bias row. Read at (p, col) that is one 256-term sum, which
  splits at 128 into the x-part against the upper half and the h̃-part against the lower half. The four 128-column
  bands of the result are the f, i, o, u pre-activations; the two stored values are h' = σ(o)·tanh(c') and
  c' = σ(i)·tanh(u) + σ(f)·c̃, with c̃ the last 128 columns of the summed children's rows.
-/
import proofs.«179276_j24730421691110_2_alg».proof.Proof.Gen.KernelIdeal.Frame
import proofs.«179276_j24730421691110_2_alg».proof.Proof.LibPlainMatmul
import proofs.«179276_j24730421691110_2_alg».proof.Proof.Cell
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.TreeCell

variable (x0 : Vec Ideal S3200x128 .f32) (x2 : Vec Ideal S3200x256 .f32) (x8 : Vec Ideal S256x512 .bf16)
  (x10 : Vec Ideal S1x512 .f32)

/-- The joined operand: the input rows, then the first 128 columns of the summed children's rows. -/
def joined : FVec Ideal S3200x256 .bf16 :=
  concatenate S3200x256 1 [⟨S3200x128, truncf .bf16 x0 bitsLt_bf16_f32⟩,
    ⟨S3200x128, truncf .bf16 (extractStridedSlice S3200x128 ![0, 0] (k0_pay1 (F := Ideal) x2) slices_S3200x256_o0_0_S3200x128) bitsLt_bf16_f32⟩]
    concatenates_S3200x128_S3200x128_S3200x256_d1

/-- Its first 128 columns are the input rows. -/
theorem joined_left (p : Fin 3200) (k : Fin 128) :
    joined x0 x2 (ix2 p (⟨k.val, by omega⟩ : Fin 256)) = x0 (ix2 p k) := by
  unfold joined
  refine (concatenate_pair_apply_left (s₁ := S3200x128) (s₂ := S3200x128) (1 : Fin 2) _ _ _ (ix2 p (⟨k.val, by omega⟩ : Fin 256)) rfl (ix2 p k) (fun b => ?_)).trans rfl
  match b with
  | ⟨0, _⟩ => rfl
  | ⟨1, _⟩ => rfl

/-- Its last 128 columns are the first 128 columns of the summed children's rows. -/
theorem joined_right (p : Fin 3200) (k : Fin 128) :
    joined x0 x2 (ix2 p (⟨128 + k.val, by omega⟩ : Fin 256)) = x2 (ix2 p (⟨k.val, by omega⟩ : Fin 256)) := by
  unfold joined
  refine (concatenate_pair_apply_right (s₁ := S3200x128) (s₂ := S3200x128) (1 : Fin 2) _ _ _ (ix2 p (⟨128 + k.val, by omega⟩ : Fin 256)) rfl rfl (ix2 p k)
    (fun b hb => ?_) ?_).trans ?_
  · match b with
    | ⟨0, _⟩ => rfl
    | ⟨1, _⟩ => exact absurd rfl hb
  · show k.val + 128 = 128 + k.val
    omega
  · show extractStridedSlice S3200x128 ![0, 0] (k0_pay1 (F := Ideal) x2) slices_S3200x256_o0_0_S3200x128 (ix2 p k) = _
    refine (slice2_axis1_apply 0 _ _ p k (⟨k.val, by omega⟩ : Fin 256) (by simp)).trans ?_
    unfold k0_pay1
    exact congrFun (shapeCast_self x2 _) _

/-- THE LINEAR PART at (p, col): the x-part against the upper half of the matrix, plus the h̃-part against the lower
    half, plus the bias entry. -/
theorem lin_apply (p : Fin 3200) (col : Fin 512) :
    k0_pay2 (F := Ideal) x0 x2 x8 x10 (ix2 p col)
      = ((∑ k : Fin 128, x0 (ix2 p k) * x8 (ix2 (⟨k.val, by omega⟩ : Fin 256) col))
          + ∑ k : Fin 128, x2 (ix2 p (⟨k.val, by omega⟩ : Fin 256)) * x8 (ix2 (⟨128 + k.val, by omega⟩ : Fin 256) col))
        + x10 (ix2 (0 : Fin 1) col) := by
  show FloatOps.matmul dot_S3200x256_S256x512_S3200x512_1_0_0_1_n_n none (joined x0 x2)
        (shapeCast S256x512 x8 shapeCasts_S256x512_S256x512) (constant S3200x512 .f32 0x00000000#32) (ix2 p col)
      + broadcastTo S3200x512 (shapeCast S1x512 x10 shapeCasts_S1x512_S1x512) broadcasts_S1x512_S3200x512 (ix2 p col) = _
  rw [shapeCast_self, shapeCast_self]
  refine congrArg₂ (· + ·) ?_ (broadcastTo_1b_ab_apply x10 _ p col)
  refine (matmul_plain_zero_apply 3200 256 512 none (joined x0 x2) x8 p col).trans ?_
  rw [sum_256_split]
  refine congrArg₂ (· + ·) (Finset.sum_congr rfl fun k _ => ?_) (Finset.sum_congr rfl fun k _ => ?_)
  · rw [joined_left]
  · rw [joined_right]

/-! ## The two stored values, when the matrix and bias tiles hold the fused weights -/

section Fused
variable (Wf Uf : Mat 128 128) (bf : Vc 128) (Wi Ui : Mat 128 384) (bi : Vc 384)

/-- The matrix tile is [[W_f | W_iou], [U_f | U_iou]] and the bias tile [b_f | b_iou]. -/
structure Fused : Prop where
  wf : ∀ (k j : Fin 128), x8 (ix2 (⟨k.val, by omega⟩ : Fin 256) (⟨j.val, by omega⟩ : Fin 512)) = Wf (ix2 k j)
  wi : ∀ (k : Fin 128) (j : Fin 384), x8 (ix2 (⟨k.val, by omega⟩ : Fin 256) (⟨128 + j.val, by omega⟩ : Fin 512)) = Wi (ix2 k j)
  uf : ∀ (k j : Fin 128), x8 (ix2 (⟨128 + k.val, by omega⟩ : Fin 256) (⟨j.val, by omega⟩ : Fin 512)) = Uf (ix2 k j)
  ui : ∀ (k : Fin 128) (j : Fin 384), x8 (ix2 (⟨128 + k.val, by omega⟩ : Fin 256) (⟨128 + j.val, by omega⟩ : Fin 512)) = Ui (ix2 k j)
  b1 : ∀ (j : Fin 128), x10 (ix2 (0 : Fin 1) (⟨j.val, by omega⟩ : Fin 512)) = bf (ix1 j)
  b2 : ∀ (j : Fin 384), x10 (ix2 (0 : Fin 1) (⟨128 + j.val, by omega⟩ : Fin 512)) = bi (ix1 j)

/-- The input row of tile row p. -/
abbrev xrow (p : Fin 3200) : Fin 128 → EReal := fun k => x0 (ix2 p k)
/-- The children's hidden sum of tile row p. -/
abbrev hrow (p : Fin 3200) : Fin 128 → EReal := fun k => x2 (ix2 p (⟨k.val, by omega⟩ : Fin 256))
/-- The children's memory sum of tile row p. -/
abbrev crow (p : Fin 3200) : Fin 128 → EReal := fun k => x2 (ix2 p (⟨128 + k.val, by omega⟩ : Fin 256))

/-- The tile of result rows: at (p, col), the result row of tile row p at column col. -/
def tileOut (y : S3200x256.Idx) : EReal :=
  outRow (xrow x0 ⟨(y 0).val, idx2_lt0 y⟩) (hrow x2 ⟨(y 0).val, idx2_lt0 y⟩) (crow x2 ⟨(y 0).val, idx2_lt0 y⟩)
    Wf Uf bf Wi Ui bi ⟨(y 1).val, idx2_lt1 y⟩

variable {x8 x10 Wf Uf bf Wi Ui bi}
variable (hF : Fused x8 x10 Wf Uf bf Wi Ui bi)
include hF

/-- Columns 0–127 of the linear part are the forget gate's pre-activation. -/
theorem lin_f (p : Fin 3200) (j : Fin 128) :
    k0_pay2 (F := Ideal) x0 x2 x8 x10 (ix2 p (⟨j.val, by omega⟩ : Fin 512)) = pre (xrow x0 p) (hrow x2 p) Wf Uf bf j := by
  rw [lin_apply]
  unfold pre
  simp only [hF.wf, hF.uf, hF.b1]

/-- Columns 128–511 are the iou block's pre-activations. -/
theorem lin_iou (p : Fin 3200) (j : Fin 384) :
    k0_pay2 (F := Ideal) x0 x2 x8 x10 (ix2 p (⟨128 + j.val, by omega⟩ : Fin 512)) = pre (xrow x0 p) (hrow x2 p) Wi Ui bi j := by
  rw [lin_apply]
  unfold pre
  simp only [hF.wi, hF.ui, hF.b2]

/-- The stored memory value at (p, j) is the specification's c'. -/
theorem pay3_apply (p : Fin 3200) (j : Fin 128) :
    k0_pay3 (F := Ideal) x0 x2 x8 x10 (ix2 p j)
      = cNew (xrow x0 p) (hrow x2 p) (crow x2 p) Wf Uf bf Wi Ui bi j := by
  have e15 : extractStridedSlice S3200x128 ![0, 0] (k0_pay2 (F := Ideal) x0 x2 x8 x10) slices_S3200x512_o0_0_S3200x128 (ix2 p j)
      = pre (xrow x0 p) (hrow x2 p) Wf Uf bf j :=
    (slice2_axis1_apply 0 _ _ p j (⟨j.val, by omega⟩ : Fin 512) (by simp)).trans (lin_f x0 x2 hF p j)
  have e16 : extractStridedSlice S3200x128 ![0, 128] (k0_pay2 (F := Ideal) x0 x2 x8 x10) slices_S3200x512_o0_128_S3200x128 (ix2 p j)
      = pre (xrow x0 p) (hrow x2 p) Wi Ui bi (⟨j.val, by omega⟩ : Fin 384) :=
    (slice2_axis1_apply 128 _ _ p j (⟨128 + j.val, by omega⟩ : Fin 512) rfl).trans (lin_iou x0 x2 hF p ⟨j.val, by omega⟩)
  have e18 : extractStridedSlice S3200x128 ![0, 384] (k0_pay2 (F := Ideal) x0 x2 x8 x10) slices_S3200x512_o0_384_S3200x128 (ix2 p j)
      = pre (xrow x0 p) (hrow x2 p) Wi Ui bi (⟨256 + j.val, by omega⟩ : Fin 384) :=
    (slice2_axis1_apply 384 _ _ p j (⟨128 + (256 + j.val), by omega⟩ : Fin 512) (by simp only; omega)).trans
      (lin_iou x0 x2 hF p ⟨256 + j.val, by omega⟩)
  have e5 : extractStridedSlice S3200x128 ![0, 128] (k0_pay1 (F := Ideal) x2) slices_S3200x256_o0_128_S3200x128 (ix2 p j)
      = crow x2 p j :=
    (slice2_axis1_apply 128 _ _ p j (⟨128 + j.val, by omega⟩ : Fin 256) rfl).trans (by
      unfold k0_pay1
      exact congrFun (shapeCast_self x2 _) _)
  have key : k0_pay3 (F := Ideal) x0 x2 x8 x10 (ix2 p j)
      = Ideal.logistic (extractStridedSlice S3200x128 ![0, 128] (k0_pay2 (F := Ideal) x0 x2 x8 x10) slices_S3200x512_o0_128_S3200x128 (ix2 p j))
          * Ideal.tanh (extractStridedSlice S3200x128 ![0, 384] (k0_pay2 (F := Ideal) x0 x2 x8 x10) slices_S3200x512_o0_384_S3200x128 (ix2 p j))
        + Ideal.logistic (extractStridedSlice S3200x128 ![0, 0] (k0_pay2 (F := Ideal) x0 x2 x8 x10) slices_S3200x512_o0_0_S3200x128 (ix2 p j))
          * extractStridedSlice S3200x128 ![0, 128] (k0_pay1 (F := Ideal) x2) slices_S3200x256_o0_128_S3200x128 (ix2 p j) := rfl
  rw [key, e15, e16, e18, e5]
  rfl

/-- The stored hidden value at (p, j) is the specification's h'. -/
theorem pay4_apply (p : Fin 3200) (j : Fin 128) :
    k0_pay4 (F := Ideal) x0 x2 x8 x10 (ix2 p j)
      = hNew (xrow x0 p) (hrow x2 p) (crow x2 p) Wf Uf bf Wi Ui bi j := by
  have e17 : extractStridedSlice S3200x128 ![0, 256] (k0_pay2 (F := Ideal) x0 x2 x8 x10) slices_S3200x512_o0_256_S3200x128 (ix2 p j)
      = pre (xrow x0 p) (hrow x2 p) Wi Ui bi (⟨128 + j.val, by omega⟩ : Fin 384) :=
    (slice2_axis1_apply 256 _ _ p j (⟨128 + (128 + j.val), by omega⟩ : Fin 512) (by simp only; omega)).trans
      (lin_iou x0 x2 hF p ⟨128 + j.val, by omega⟩)
  have key : k0_pay4 (F := Ideal) x0 x2 x8 x10 (ix2 p j)
      = Ideal.logistic (extractStridedSlice S3200x128 ![0, 256] (k0_pay2 (F := Ideal) x0 x2 x8 x10) slices_S3200x512_o0_256_S3200x128 (ix2 p j))
          * Ideal.tanh (k0_pay3 (F := Ideal) x0 x2 x8 x10 (ix2 p j)) := rfl
  rw [key, e17, pay3_apply x0 x2 hF]
  rfl

omit hF in
/-- The zero offsets of a whole-tile access, as a function. -/
theorem hz2 : (![0, 0] : Fin 2 → Nat) = fun _ => 0 := funext fun a => by fin_cases a <;> rfl

/-- WHAT THE BODY LEAVES IN THE OUTPUT TILE is the tile of result rows: the h' store fills columns 0–127 and the c'
    store columns 128–255. -/
theorem out_eq : out0_4 (F := Ideal) x0 x2 x8 x10 = tileOut x0 x2 Wf Uf bf Wi Ui bi := by
  funext y
  unfold out0_4
  simp only [View.ld_unit_zero (S := S3200x128) hz2, View.ld_unit_zero (S := S3200x256) hz2,
    View.ld_unit_zero (S := S256x512) hz2, View.ld_unit_zero (S := S1x512) hz2]
  refine View.canon_apply_of_pieces (Val := Elt Ideal) (tileOut x0 x2 Wf Uf bf Wi Ui bi) _
    (fun pc hpc x => ?_) y (cover0_4 _ _ y)
  simp only [List.mem_cons, List.not_mem_nil, or_false] at hpc
  rcases hpc with rfl | rfl
  · -- the c' store: columns 128–255
    obtain ⟨p, j, rfl⟩ : ∃ (p : Fin 3200) (j : Fin 128), x = ix2 p j := ⟨x 0, x 1, eq_ix2 x⟩
    have h0 : (⟨((r0_5.emb (ix2 p j)) 0).val, idx2_lt0 (r0_5.emb (ix2 p j))⟩ : Fin 3200) = p :=
      Fin.ext (by show 0 + 1 * p.val = p.val; omega)
    show k0_pay3 (F := Ideal) x0 x2 x8 x10 (ix2 p j) = tileOut x0 x2 Wf Uf bf Wi Ui bi (r0_5.emb (ix2 p j))
    unfold tileOut
    rw [h0, pay3_apply x0 x2 hF]
    exact (outRow_right _ _ _ _ _ _ _ _ _ j _ (by show 128 + 1 * j.val = 128 + j.val; omega)).symm
  · -- the h' store: columns 0–127
    obtain ⟨p, j, rfl⟩ : ∃ (p : Fin 3200) (j : Fin 128), x = ix2 p j := ⟨x 0, x 1, eq_ix2 x⟩
    have h0 : (⟨((r0_4.emb (ix2 p j)) 0).val, idx2_lt0 (r0_4.emb (ix2 p j))⟩ : Fin 3200) = p :=
      Fin.ext (by show 0 + 1 * p.val = p.val; omega)
    show k0_pay4 (F := Ideal) x0 x2 x8 x10 (ix2 p j) = tileOut x0 x2 Wf Uf bf Wi Ui bi (r0_4.emb (ix2 p j))
    unfold tileOut
    rw [h0, pay4_apply x0 x2 hF]
    exact (outRow_left _ _ _ _ _ _ _ _ _ j _ (by show 0 + 1 * j.val = j.val; omega)).symm

end Fused

end Cert.KernelIdeal.Body

end
-- ==== Proof.LibGatherRows.lean ====
import Idealize.ShloMosaic.Lib.ValueIdx

/-!
# A gather of the rows of a matrix, read at an index

What `x[idx]` over the ROWS of a matrix `x : [N, C]` at an integer array `idx : [E]` lowers to: `stablehlo.gather`
with offset_dims `[1]`, collapsed_slice_dims `[0]`, start_index_map `[0]`, index_vector_dim 1 and slice_sizes
`[1, C]` over the indices as `[E, 1]`. Result element `(e, c)` is `x` at row `r(e)` and column `c`, where `r(e)` is
the start index `idx[e, 0]` read as a signed integer and clamped into `[0, N − 1]`, as StableHLO's gather clamps
every start index. The row depends on `N`, `idx` and `e` only, not on the width `C`.
-/

noncomputable section

namespace Cert.RowGather

open Idealize.ShloMosaic Idealize.ShloMosaic.ValueIdx

/-- The dimension numbers of a row gather: an operand `[N, C]`, start indices `[E, 1]` and a result `[E, C]`; axis 0
    of the operand is collapsed and indexed by the one component of the start index, axis 1 is taken whole (slice
    size `C`) and becomes the result's offset axis 1. Their conditions `wf` are decided on a program's literal
    shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the start index `idx[e, 0]` read as a signed integer and clamped into
    `[0, N − 1]`. It does not mention the operand's width. -/
def rowOf {N E w : Nat} (hN : 0 < N) (idx : IVec ⟨2, ![E, 1]⟩ w) (e : Fin E) : Fin N :=
  ⟨min (idx (ix2 e ⟨0, Nat.one_pos⟩)).toInt.toNat (N - 1), by omega⟩

/-- Axis 1 is not axis 0: it is neither collapsed nor named by the start index map. -/
private theorem one_not_mem_zero : (1 : Fin 2) ∉ [(0 : Fin 2)] := by decide

/-- THE ROW GATHER READ AT `(e, c)`: the operand at row `rowOf hN idx e` and column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  refine Fin.ext ?_
  match a with
  | ⟨0, _⟩ =>
    -- axis 0: collapsed, named by the start index map: the clamped start index alone
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- axis 1: not in the start index map (start 0), not batching, kept: the result's coordinate on offset axis 1
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show (1 : Fin 2) ∉ (rowGatherDims N E C wf).startIndexMap from one_not_mem_zero)]
    have hk : (1 : Fin 2) ∈ (rowGatherDims N E C wf).sKept :=
      (GatherDims.mem_sKept _ _).mpr ⟨one_not_mem_zero, List.not_mem_nil⟩
    have hoff : (rowGatherDims N E C wf).offCoord (ix2 e c) 1 = c.val := by
      unfold GatherDims.offCoord
      rw [dif_pos hk]
      rfl
    rw [hst, hoff, Nat.zero_add]

end Cert.RowGather

end
-- ==== Proof.LibScatterRows.lean ====
/-
  A ROW SCATTER WITH AN ADDING BODY, READ AT AN INDEX.

  The scatter that a segment sum over rows lowers to: operand `[N, C]`, scatter indices `[E, 1]`, updates `[E, C]`,
  update window axes `[1]`, inserted window axes `[0]`, scatter-dims-to-operand-dims `[0]`, index vector axis `1`.
  Update row `e` is added, column by column, into operand row `idx[e, 0]` (read as a signed integer, not clamped);
  a row whose index falls outside `[0, N)` is dropped. Over the extended reals the result at `(n, c)` is therefore
  the operand's element plus the sum of `upd (e, c)` over the rows `e` with `idx[e, 0] = n`.
-/
import Idealize.ShloMosaic.Lib.ValueIdx

noncomputable section

open scoped BigOperators

namespace Cert.RowScatter

open Idealize.ShloMosaic Idealize.ShloMosaic.ValueIdx

/-- The dimension numbers of a row scatter: operand `[N, C]`, scatter indices `[E, 1]`, updates `[E, C]`; the
    updates' axis 1 is the window axis and goes to the operand's axis 1, the operand's axis 0 is inserted and is the
    one the (one-component) scatter index addresses. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On operand axis 0 the window of update index `(e, c')` starts at the scatter index `idx[e, 0]`, read signed. -/
theorem start_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On operand axis 1, which the scatter index does not address, every window starts at `0`. -/
theorem start_one {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  show ¬ ((1 : Fin 2) ∈ [(0 : Fin 2)])
  decide

/-- On the inserted operand axis 0 the window coordinate is `0`. -/
theorem window_zero {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 0 = 0 := by
  unfold ScatterDims.window
  rw [dif_neg]
  show ¬ ((0 : Fin 2) ∈ [(1 : Fin 2)])
  decide

/-- On operand axis 1 the window coordinate is the update index's column. -/
theorem window_one {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 1 = (j 1).val := by
  unfold ScatterDims.window
  rw [dif_pos (show (1 : Fin 2) ∈ (rowScatterDims N E C wf).sKept from
    (show (1 : Fin 2) ∈ [(1 : Fin 2)] from List.mem_singleton.mpr rfl))]
  rfl

/-- For any scatter dimension numbers: update index `j` lands on operand index `i` exactly when, on every operand
    axis, the (signed) start plus the window coordinate is `i`'s coordinate. The in-range condition is then automatic,
    since `i`'s coordinates are in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have := congrFun (Option.some.inj h) a
      have hv := congrArg Fin.val this
      simp only at hv
      have := hb a
      omega
    · exact absurd h (by simp)
  · intro h
    have hb : ∀ a, 0 ≤ d.start j idx a + (d.window j a : Int) ∧ d.start j idx a + (d.window j a : Int) < s.size a := by
      intro a; have := h a; have := (i a).isLt; omega
    rw [dif_pos hb]
    congr 1
    funext a
    refine Fin.ext ?_
    have := h a
    show (d.start j idx a + (d.window j a : Int)).toNat = (i a).val
    omega

/-- Update index `(e, c')` lands on operand index `(n, c)` exactly when the scatter index `idx[e, 0]`, read as a
    signed integer, is `n`, and the columns agree. -/
theorem resultIdx_rows_iff {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  rw [resultIdx?_eq_some_iff]
  constructor
  · intro h
    have h0 : (idx (ix2 e ⟨0, Nat.one_pos⟩)).toInt + ((0 : Nat) : Int) = (n.val : Int) := by
      have := h 0; rwa [start_zero, window_zero] at this
    have h1 : (0 : Int) + (c'.val : Int) = (c.val : Int) := by
      have := h 1; rwa [start_one, window_one] at this
    refine ⟨?_, Fin.ext ?_⟩
    · omega
    · omega
  · rintro ⟨h0, rfl⟩ a
    match a with
    | ⟨0, _⟩ =>
      show (rowScatterDims N E C wf).start (ix2 e c') idx 0 + ((rowScatterDims N E C wf).window (ix2 e c') 0 : Int) = _
      rw [start_zero, window_zero, h0]
      show (n.val : Int) + ((0 : Nat) : Int) = (n.val : Int)
      omega
    | ⟨1, _⟩ =>
      show (rowScatterDims N E C wf).start (ix2 e c') idx 1 + ((rowScatterDims N E C wf).window (ix2 e c') 1 : Int) = _
      rw [start_one, window_one]
      show (0 : Int) + (c'.val : Int) = (c'.val : Int)
      omega

/-- The same for an update index not yet split into its coordinates. -/
theorem resultIdx_rows_iff' {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (c : Fin C) :
    (rowScatterDims N E C wf).resultIdx? j idx = some (ix2 n c)
      ↔ (idx (ix2 (j 0 : Fin E) ⟨0, Nat.one_pos⟩)).toInt = (n.val : Int) ∧ (j 1 : Fin C) = c := by
  have h := resultIdx_rows_iff wf idx (j 0) (j 1) n c
  constructor
  · intro hj
    rw [eq_ix2 j] at hj
    exact h.mp hj
  · intro hh
    rw [eq_ix2 j]
    exact h.mpr hh

/-- THE ROW SCATTER READ AT `(n, c)`: the operand's element plus the sum, over the update rows `e` whose scatter index
    `idx[e, 0]` (signed, not clamped) is `n`, of `upd (e, c)`. The update indices landing on `(n, c)` are the
    `(e, c)` with `idx[e, 0] = n`; the sum is re-indexed along `(e, c) ↦ e`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e ∈ Finset.univ.filter (fun e : Fin E => (idx (ix2 e ⟨0, Nat.one_pos⟩)).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx_rows_iff' wf idx j n c).mp hj').1⟩
  · intro e he
    have he' := (Finset.mem_filter.mp he).2
    exact Finset.mem_filter.mpr ⟨Finset.mem_univ _, (resultIdx_rows_iff wf idx e c n c).mpr ⟨he', rfl⟩⟩
  · intro j hj
    have hj' := (Finset.mem_filter.mp hj).2
    have h := ((resultIdx_rows_iff' wf idx j n c).mp hj').2
    rw [← h]; exact (eq_ix2 j).symm
  · intro e _; rfl
  · intro j hj
    have hj' := (Finset.mem_filter.mp hj).2
    have h := ((resultIdx_rows_iff' wf idx j n c).mp hj').2
    rw [← h]; exact congrArg upd (eq_ix2 j)

end Cert.RowScatter

end
-- ==== Proof.SegSum.lean ====
/-
  The children's rows summed by parent: a row gather followed by an accumulating row scatter into zeros.

  Edge e reads operand row r(e) (its child index, clamped into the array) and adds it into row par(e) (its parent
  index, read signed; an index that names no row drops the edge). At (n, c) the result is the sum over the edges e with
  par(e) = n of a(r(e), c) — the same rows r(e) and the same edge set whatever the width of a. So the sum taken on
  the 256-column array [h | c] is, in its first 128 columns, the sum taken on h, and in its last 128 the sum taken on c.
-/
import proofs.«179276_j24730421691110_2_alg».proof.Proof.LibGatherRows
import proofs.«179276_j24730421691110_2_alg».proof.Proof.LibScatterRows
import proofs.«179276_j24730421691110_2_alg».proof.Proof.Cell
import Idealize.ShloMosaic.PureOps.Ideal.Laws
import Idealize.ShloMosaic.Lib.Pipeline.Value

noncomputable section

open scoped BigOperators

namespace Cert.TreeCell

open Idealize.ShloMosaic Idealize.ShloMosaic.ValueIdx Cert.RowGather Cert.RowScatter

/-- The operand row edge `e` reads: its child index, clamped into the array's rows. -/
def edgeRow (cidx : IVec ⟨2, ![400000, 1]⟩ 32) : Fin 400000 → Fin 400000 :=
  rowOf (N := 400000) (by norm_num) cidx

/-- The row edge `e` adds into: its parent index read as a signed integer. -/
def edgePar (pidx : IVec ⟨2, ![400000, 1]⟩ 32) : Fin 400000 → Int :=
  fun e => (pidx (ix2 e ⟨0, Nat.one_pos⟩)).toInt

/-- A row gather scattered with addition into zeros, at (n, c): the sum over the edges into n of the gathered rows. -/
theorem scatter_gather_rows {C : Nat}
    (wfG : GatherDims.WF ⟨2, ![400000, C]⟩ ⟨2, ![400000, 1]⟩ ⟨2, ![400000, C]⟩ [1] [0] [] [0] [] 1 ![1, C])
    (wfS : ScatterDims.WF ⟨2, ![400000, C]⟩ ⟨2, ![400000, 1]⟩ ⟨2, ![400000, C]⟩ [1] [0] [0] 1)
    (hb : (⟨0, ![]⟩ : Shape).BroadcastsInDim ⟨2, ![400000, C]⟩ (![] : Fin 0 → Fin 2))
    (a : (⟨2, ![400000, C]⟩ : Shape).Idx → EReal) (cidx pidx : IVec ⟨2, ![400000, 1]⟩ 32) (n : Fin 400000) (c : Fin C) :
    Host.scatterAdd (F := Ideal) (φ := .f32) (rowScatterDims 400000 400000 C wfS)
        (broadcastInDim ⟨2, ![400000, C]⟩ ![] hb (constant (F := Ideal) ⟨0, ![]⟩ .f32 0x00000000#32)) pidx
        (Host.gather (rowGatherDims 400000 400000 C wfG) a cidx) (ix2 n c)
      = ∑ e ∈ Finset.univ.filter (fun e : Fin 400000 => edgePar pidx e = (n.val : Int)), a (ix2 (edgeRow cidx e) c) := by
  show Ideal.hostScatterAdd (rowScatterDims 400000 400000 C wfS) _ pidx _ (ix2 n c) = _
  rw [hostScatterAdd_rows_apply]
  have hz : broadcastInDim ⟨2, ![400000, C]⟩ ![] hb (constant (F := Ideal) ⟨0, ![]⟩ .f32 0x00000000#32) (ix2 n c)
      = (0 : EReal) := by
    show Ideal.ofBits .f32 0x00000000#32 = 0
    exact Ideal.ofBits_zero_f32
  rw [hz, zero_add]
  exact Finset.sum_congr rfl fun e _ => gather_rows_apply _ wfG a cidx e c

/-- At width 128 it is the children's sum of the specification. -/
theorem scatter_gather_128
    (wfG : GatherDims.WF ⟨2, ![400000, 128]⟩ ⟨2, ![400000, 1]⟩ ⟨2, ![400000, 128]⟩ [1] [0] [] [0] [] 1 ![1, 128])
    (wfS : ScatterDims.WF ⟨2, ![400000, 128]⟩ ⟨2, ![400000, 1]⟩ ⟨2, ![400000, 128]⟩ [1] [0] [0] 1)
    (hb : (⟨0, ![]⟩ : Shape).BroadcastsInDim ⟨2, ![400000, 128]⟩ (![] : Fin 0 → Fin 2))
    (a : Mat 400000 128) (cidx pidx : IVec ⟨2, ![400000, 1]⟩ 32) (n : Fin 400000) (k : Fin 128) :
    Host.scatterAdd (F := Ideal) (φ := .f32) (rowScatterDims 400000 400000 128 wfS)
        (broadcastInDim ⟨2, ![400000, 128]⟩ ![] hb (constant (F := Ideal) ⟨0, ![]⟩ .f32 0x00000000#32)) pidx
        (Host.gather (rowGatherDims 400000 400000 128 wfG) a cidx) (ix2 n k)
      = segSum a (edgeRow cidx) (edgePar pidx) n k :=
  scatter_gather_rows wfG wfS hb a cidx pidx n k

section Joined
variable (wfG : GatherDims.WF ⟨2, ![400000, 256]⟩ ⟨2, ![400000, 1]⟩ ⟨2, ![400000, 256]⟩ [1] [0] [] [0] [] 1 ![1, 256])
  (wfS : ScatterDims.WF ⟨2, ![400000, 256]⟩ ⟨2, ![400000, 1]⟩ ⟨2, ![400000, 256]⟩ [1] [0] [0] 1)
  (hb : (⟨0, ![]⟩ : Shape).BroadcastsInDim ⟨2, ![400000, 256]⟩ (![] : Fin 0 → Fin 2))
  (hc : Shape.Concatenates [(⟨2, ![400000, 128]⟩ : Shape), ⟨2, ![400000, 128]⟩] ⟨2, ![400000, 256]⟩ 1)
  (h c : Mat 400000 128) (cidx pidx : IVec ⟨2, ![400000, 1]⟩ 32) (n : Fin 400000) (k : Fin 128)

/-- On [h | c], columns 0–127: the children's sum of h. -/
theorem scatter_gather_joined_left :
    Host.scatterAdd (F := Ideal) (φ := .f32) (rowScatterDims 400000 400000 256 wfS)
        (broadcastInDim ⟨2, ![400000, 256]⟩ ![] hb (constant (F := Ideal) ⟨0, ![]⟩ .f32 0x00000000#32)) pidx
        (Host.gather (rowGatherDims 400000 400000 256 wfG)
          (concatenate ⟨2, ![400000, 256]⟩ 1 [⟨⟨2, ![400000, 128]⟩, h⟩, ⟨⟨2, ![400000, 128]⟩, c⟩] hc) cidx)
        (ix2 n (⟨k.val, by omega⟩ : Fin 256))
      = segSum h (edgeRow cidx) (edgePar pidx) n k := by
  rw [scatter_gather_rows]
  unfold segSum
  refine Finset.sum_congr rfl fun e _ => ?_
  refine concatenate_pair_apply_left (s₁ := ⟨2, ![400000, 128]⟩) (s₂ := ⟨2, ![400000, 128]⟩) (1 : Fin 2) h c hc
    (ix2 (edgeRow cidx e) (⟨k.val, by omega⟩ : Fin 256)) rfl (ix2 (edgeRow cidx e) k) (fun b => ?_)
  match b with
  | ⟨0, _⟩ => rfl
  | ⟨1, _⟩ => rfl

/-- On [h | c], columns 128–255: the children's sum of c. -/
theorem scatter_gather_joined_right :
    Host.scatterAdd (F := Ideal) (φ := .f32) (rowScatterDims 400000 400000 256 wfS)
        (broadcastInDim ⟨2, ![400000, 256]⟩ ![] hb (constant (F := Ideal) ⟨0, ![]⟩ .f32 0x00000000#32)) pidx
        (Host.gather (rowGatherDims 400000 400000 256 wfG)
          (concatenate ⟨2, ![400000, 256]⟩ 1 [⟨⟨2, ![400000, 128]⟩, h⟩, ⟨⟨2, ![400000, 128]⟩, c⟩] hc) cidx)
        (ix2 n (⟨128 + k.val, by omega⟩ : Fin 256))
      = segSum c (edgeRow cidx) (edgePar pidx) n k := by
  rw [scatter_gather_rows]
  unfold segSum
  refine Finset.sum_congr rfl fun e _ => ?_
  refine concatenate_pair_apply_right (s₁ := ⟨2, ![400000, 128]⟩) (s₂ := ⟨2, ![400000, 128]⟩) (1 : Fin 2) h c hc
    (ix2 (edgeRow cidx e) (⟨128 + k.val, by omega⟩ : Fin 256)) rfl rfl (ix2 (edgeRow cidx e) k) (fun b hb' => ?_) ?_
  · match b with
    | ⟨0, _⟩ => rfl
    | ⟨1, _⟩ => exact absurd rfl hb'
  · show k.val + 128 = 128 + k.val
    omega

end Joined

end Cert.TreeCell

end
-- ==== Proof.KernelHost.lean ====
/-
  The arrays the kernel's windows stage, as the region finds them.

  Before the kernel runs, the surrounding program lays h beside c and sums the children's rows of that 256-column
  array by parent (so its first 128 columns are the children's hidden sum and its last 128 the memory sum); stacks
  [W_f | W_iou] over [U_f | U_iou] into one 256 × 512 matrix (a change of float format on the way is the identity
  on extended reals); and lays b_f beside b_iou as one 512-entry row. Each is read here at an index.
-/
import proofs.«179276_j24730421691110_2_alg».proof.Proof.Gen.KernelIdeal.Frame
import proofs.«179276_j24730421691110_2_alg».proof.Proof.SegSum
import Idealize.ShloMosaic.Lib.StableHlo.Run
import Idealize.ShloMosaic.Lib.ValueLayout

noncomputable section

open scoped BigOperators

namespace Cert.KernelIdeal.HostSide

open Cert.KernelIdeal Cert.KernelIdeal.Gen Idealize.ShloMosaic Idealize.ShloMosaic.TcCoe Idealize.SL.Sem
  Idealize.ShloMosaic.StableHlo Idealize.ShloMosaic.ValueIdx Cert.TreeCell Cert.RowGather Cert.RowScatter

variable (m : (ℓ : Loc nD τ sig) → Buf (Elt Ideal) ℓ) (c : Dev nD)

/-- The argument arrays as launched. -/
abbrev argX : Mat 400000 128 := m ((c : Thread nD τ).loc main_arg0)
abbrev argH : Mat 400000 128 := m ((c : Thread nD τ).loc main_arg1)
abbrev argC : Mat 400000 128 := m ((c : Thread nD τ).loc main_arg2)
abbrev argChild : IVec ⟨1, ![400000]⟩ 32 := m ((c : Thread nD τ).loc main_arg3)
abbrev argParent : IVec ⟨1, ![400000]⟩ 32 := m ((c : Thread nD τ).loc main_arg4)
abbrev argWf : Mat 128 128 := m ((c : Thread nD τ).loc main_arg5)
abbrev argUf : Mat 128 128 := m ((c : Thread nD τ).loc main_arg6)
abbrev argBf : Vc 128 := m ((c : Thread nD τ).loc main_arg7)
abbrev argWi : Mat 128 384 := m ((c : Thread nD τ).loc main_arg8)
abbrev argUi : Mat 128 384 := m ((c : Thread nD τ).loc main_arg9)
abbrev argBi : Vc 384 := m ((c : Thread nD τ).loc main_arg10)

/-- The child indices as the gather reads them: a negative index wrapped once by the number of rows, as a column. -/
def childIdx : IVec ⟨2, ![400000, 1]⟩ 32 :=
  broadcastInDim S400000x1 ![0] bcast_S400000_S400000x1_0
    (select (cmpi .slt (argChild m c) (broadcastInDim S400000 ![] bcast_S_S400000 (constantI S_ 32 0#32)))
      (addi (argChild m c) (broadcastInDim S400000 ![] bcast_S_S400000 (constantI S_ 32 400000#32))) (argChild m c))

/-- The parent indices as the scatter reads them, as a column. -/
def parentIdx : IVec ⟨2, ![400000, 1]⟩ 32 :=
  broadcastInDim S400000x1 ![0] bcast_S400000_S400000x1_0 (argParent m c)

/-! ## The summed children's rows -/

theorem sums_eq : (V m c main_v10 : S400000x256.Idx → EReal) =
    Host.scatterAdd (F := Ideal) scatter_S400000x256_S400000x1_S400000x256_1_0_0_1
      (broadcastInDim S400000x256 ![] bcast_S_S400000x256 (constant (F := Ideal) S_ .f32 0x00000000#32)) (parentIdx m c)
      (Host.gather gather_S400000x256_S400000x1_S400000x256_1_0_n_n_0_1_1256
        (concatenate S400000x256 1 [⟨S400000x128, argH m c⟩, ⟨S400000x128, argC m c⟩]
          concatenates_S400000x128_S400000x128_S400000x256_d1) (childIdx m c)) := by
  dsimp only [Gen.V, Gen.hostOps0]
  after_results <;> rfl

/-- Columns 0–127: the children's hidden rows summed by parent. -/
theorem hsum_apply (n : Fin 400000) (k : Fin 128) :
    (V m c main_v10 : S400000x256.Idx → EReal) (ix2 n (⟨k.val, by omega⟩ : Fin 256))
      = segSum (argH m c) (edgeRow (childIdx m c)) (edgePar (parentIdx m c)) n k :=
  (congrFun (sums_eq m c) _).trans
    (scatter_gather_joined_left _ _ _ _ (argH m c) (argC m c) (childIdx m c) (parentIdx m c) n k)

/-- Columns 128–255: the children's memory rows summed by parent. -/
theorem csum_apply (n : Fin 400000) (k : Fin 128) :
    (V m c main_v10 : S400000x256.Idx → EReal) (ix2 n (⟨128 + k.val, by omega⟩ : Fin 256))
      = segSum (argC m c) (edgeRow (childIdx m c)) (edgePar (parentIdx m c)) n k :=
  (congrFun (sums_eq m c) _).trans
    (scatter_gather_joined_right _ _ _ _ (argH m c) (argC m c) (childIdx m c) (parentIdx m c) n k)

/-! ## The stacked weight matrix -/

theorem weights_eq : (V m c main_v14 : S256x512.Idx → EReal) =
    truncf (F := Ideal) .bf16 (concatenate S256x512 0
      [⟨S128x512, concatenate S128x512 1 [⟨S128x128, argWf m c⟩, ⟨S128x384, argWi m c⟩] concatenates_S128x128_S128x384_S128x512_d1⟩,
       ⟨S128x512, concatenate S128x512 1 [⟨S128x128, argUf m c⟩, ⟨S128x384, argUi m c⟩] concatenates_S128x128_S128x384_S128x512_d1⟩]
      concatenates_S128x512_S128x512_S256x512_d0) bitsLt_bf16_f32 := by
  dsimp only [Gen.V, Gen.hostOps0]
  after_results <;> rfl

section Blocks
variable (A : Mat 128 128) (B : Mat 128 384) (C : Mat 128 128) (D : Mat 128 384)

/-- [A | B] over [C | D]. -/
def stacked : S256x512.Idx → EReal :=
  concatenate S256x512 0
    [⟨S128x512, concatenate S128x512 1 [⟨S128x128, A⟩, ⟨S128x384, B⟩] concatenates_S128x128_S128x384_S128x512_d1⟩,
     ⟨S128x512, concatenate S128x512 1 [⟨S128x128, C⟩, ⟨S128x384, D⟩] concatenates_S128x128_S128x384_S128x512_d1⟩]
    concatenates_S128x512_S128x512_S256x512_d0

theorem beside_left (A : Mat 128 128) (B : Mat 128 384) (k : Fin 128) (j : Fin 128) :
    concatenate S128x512 1 [⟨S128x128, A⟩, ⟨S128x384, B⟩] concatenates_S128x128_S128x384_S128x512_d1
      (ix2 k (⟨j.val, by omega⟩ : Fin 512)) = A (ix2 k j) := by
  refine concatenate_pair_apply_left (t := S128x512) (s₁ := S128x128) (s₂ := S128x384) (1 : Fin 2) A B _ _ rfl (ix2 k j) (fun b => ?_)
  match b with
  | ⟨0, _⟩ => rfl
  | ⟨1, _⟩ => rfl

theorem beside_right (A : Mat 128 128) (B : Mat 128 384) (k : Fin 128) (j : Fin 384) :
    concatenate S128x512 1 [⟨S128x128, A⟩, ⟨S128x384, B⟩] concatenates_S128x128_S128x384_S128x512_d1
      (ix2 k (⟨128 + j.val, by omega⟩ : Fin 512)) = B (ix2 k j) := by
  refine concatenate_pair_apply_right (t := S128x512) (s₁ := S128x128) (s₂ := S128x384) (1 : Fin 2) A B _ _ rfl rfl (ix2 k j)
    (fun b hb => ?_) ?_
  · match b with
    | ⟨0, _⟩ => rfl
    | ⟨1, _⟩ => exact absurd rfl hb
  · show j.val + 128 = 128 + j.val
    omega

theorem stacked_top (k : Fin 128) (col : Fin 512) :
    stacked A B C D (ix2 (⟨k.val, by omega⟩ : Fin 256) col)
      = concatenate S128x512 1 [⟨S128x128, A⟩, ⟨S128x384, B⟩] concatenates_S128x128_S128x384_S128x512_d1 (ix2 k col) := by
  unfold stacked
  refine concatenate_pair_apply_left (t := S256x512) (s₁ := S128x512) (s₂ := S128x512) (0 : Fin 2) _ _ _ _ rfl (ix2 k col) (fun b => ?_)
  match b with
  | ⟨0, _⟩ => rfl
  | ⟨1, _⟩ => rfl

theorem stacked_bottom (k : Fin 128) (col : Fin 512) :
    stacked A B C D (ix2 (⟨128 + k.val, by omega⟩ : Fin 256) col)
      = concatenate S128x512 1 [⟨S128x128, C⟩, ⟨S128x384, D⟩] concatenates_S128x128_S128x384_S128x512_d1 (ix2 k col) := by
  unfold stacked
  refine concatenate_pair_apply_right (t := S256x512) (s₁ := S128x512) (s₂ := S128x512) (0 : Fin 2) _ _ _ _ rfl rfl (ix2 k col)
    (fun b hb => ?_) ?_
  · match b with
    | ⟨0, _⟩ => exact absurd rfl hb
    | ⟨1, _⟩ => rfl
  · show k.val + 128 = 128 + k.val
    omega

end Blocks

/-! ## The bias row -/

theorem bias_eq : (V m c main_v16 : S1x512.Idx → EReal) =
    shapeCast S1x512 (concatenate S512 0 [⟨S128, argBf m c⟩, ⟨S384, argBi m c⟩] concatenates_S128_S384_S512_d0)
      shapeCasts_S512_S1x512 := by
  dsimp only [Gen.V, Gen.hostOps0]
  after_results <;> rfl

theorem bias_left (j : Fin 128) :
    (V m c main_v16 : S1x512.Idx → EReal) (ix2 (0 : Fin 1) (⟨j.val, by omega⟩ : Fin 512)) = argBf m c (ix1 j) := by
  refine (congrFun (bias_eq m c) _).trans ((shapeCast_a_1a_apply _ _ (0 : Fin 1) (⟨j.val, by omega⟩ : Fin 512)).trans ?_)
  refine concatenate_pair_apply_left (t := S512) (s₁ := S128) (s₂ := S384) (0 : Fin 1) _ _ _ _ rfl (ix1 j) (fun b => ?_)
  match b with
  | ⟨0, _⟩ => rfl

theorem bias_right (j : Fin 384) :
    (V m c main_v16 : S1x512.Idx → EReal) (ix2 (0 : Fin 1) (⟨128 + j.val, by omega⟩ : Fin 512)) = argBi m c (ix1 j) := by
  refine (congrFun (bias_eq m c) _).trans ((shapeCast_a_1a_apply _ _ (0 : Fin 1) (⟨128 + j.val, by omega⟩ : Fin 512)).trans ?_)
  refine concatenate_pair_apply_right (t := S512) (s₁ := S128) (s₂ := S384) (0 : Fin 1) _ _ _ _ rfl rfl (ix1 j) (fun b hb => ?_) ?_
  · match b with
    | ⟨0, _⟩ => exact absurd rfl hb
  · show j.val + 128 = 128 + j.val
    omega

end Cert.KernelIdeal.HostSide

end
-- ==== Proof.KernelBlocks.lean ====
/-
  From row tiles to the whole result array.

  Grid point t works on rows 3200·t … 3200·t + 3199: it stages that row tile of x and of the summed children's
  rows, the whole stacked weight matrix and the whole bias row, and writes back the same row tile of the result. What
  it writes back is therefore the row tile of the Tree-LSTM cell over the whole arrays; the 125 tiles cover every
  row, so the array after the run is the cell.
-/
import proofs.«179276_j24730421691110_2_alg».proof.Proof.Gen.KernelIdeal.Value
import proofs.«179276_j24730421691110_2_alg».proof.Proof.KernelPayload
import proofs.«179276_j24730421691110_2_alg».proof.Proof.KernelHost

noncomputable section

namespace Cert.KernelIdeal.Whole

open Cert.KernelIdeal Cert.KernelIdeal.Gen Idealize.ShloMosaic Idealize.ShloMosaic.TcCoe Idealize.SL.Sem
  Idealize.ShloMosaic.ValueIdx Cert.TreeCell Cert.KernelIdeal.HostSide
open Idealize.ShloMosaic.Pipeline (Dat)

variable (m : (ℓ : Loc nD τ sig) → Buf (Elt Ideal) ℓ) (ρ : Dev nD → PrngReg)

/-- The cell over the argument arrays as launched. -/
def cellOf (c : Dev nD) : S400000x256.Idx → EReal :=
  G (argX m c) (argH m c) (argC m c) (edgeRow (childIdx m c)) (edgePar (parentIdx m c))
    (argWf m c) (argUf m c) (argBf m c) (argWi m c) (argUi m c) (argBi m c)

/-- The printed index maps, decided over the 125 grid points: the row-tiled windows sit at block row t, everything
    else at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of tile t is row 3200·t + p of the arrays. -/
def rowAt (t : Fin cfg0.N) (p : Fin 3200) : Fin 400000 :=
  ⟨t.val * 3200 + p.val, by have ht : t.val < 125 := t.isLt; have := p.isLt; omega⟩

/-! ## The staged blocks -/

theorem blk_x (c : Dev nD) (t : Fin cfg0.N) (p : Fin 3200) (k : Fin 128) :
    iblk m c 0 t (ix2 p k) = argX m c (ix2 (rowAt t p) k) := by
  obtain ⟨e0, e1, -⟩ := idx_facts t
  show V m c main_arg0 (((cfg0.win 0).blk t).view.emb (ix2 p k)) = _
  rw [V_main_arg0]
  show argX m c (((cfg0.win 0).blk t).view.emb (ix2 p k)) = _
  refine congrArg (argX m c) (funext fun a => Fin.ext ?_)
  match a with
  | ⟨0, _⟩ => show win0_0.index t (0 : Fin 2) * 3200 + 1 * p.val = t.val * 3200 + p.val; omega
  | ⟨1, _⟩ => show win0_0.index t (1 : Fin 2) * 128 + 1 * k.val = k.val; omega

theorem blk_sums (c : Dev nD) (t : Fin cfg0.N) (p : Fin 3200) (col : Fin 256) :
    iblk m c 1 t (ix2 p col) = (V m c main_v10 : S400000x256.Idx → EReal) (ix2 (rowAt t p) col) := by
  obtain ⟨-, -, e0, e1, -⟩ := idx_facts t
  show V m c main_v10 (((cfg0.win 1).blk t).view.emb (ix2 p col)) = _
  refine congrArg (V m c main_v10 : S400000x256.Idx → EReal) (funext fun a => Fin.ext ?_)
  match a with
  | ⟨0, _⟩ => show win0_1.index t (0 : Fin 2) * 3200 + 1 * p.val = t.val * 3200 + p.val; omega
  | ⟨1, _⟩ => show win0_1.index t (1 : Fin 2) * 256 + 1 * col.val = col.val; omega

theorem blk_weights (c : Dev nD) (t : Fin cfg0.N) (k : Fin 256) (col : Fin 512) :
    iblk m c 2 t (ix2 k col) = (V m c main_v14 : S256x512.Idx → EReal) (ix2 k col) := by
  obtain ⟨-, -, -, -, e0, e1, -⟩ := idx_facts t
  show V m c main_v14 (((cfg0.win 2).blk t).view.emb (ix2 k col)) = _
  refine congrArg (V m c main_v14 : S256x512.Idx → EReal) (funext fun a => Fin.ext ?_)
  match a with
  | ⟨0, _⟩ => show win0_2.index t (0 : Fin 2) * 256 + 1 * k.val = k.val; omega
  | ⟨1, _⟩ => show win0_2.index t (1 : Fin 2) * 512 + 1 * col.val = col.val; omega

theorem blk_bias (c : Dev nD) (t : Fin cfg0.N) (u : Fin 1) (col : Fin 512) :
    iblk m c 3 t (ix2 u col) = (V m c main_v16 : S1x512.Idx → EReal) (ix2 u col) := by
  obtain ⟨-, -, -, -, -, -, e0, e1, -⟩ := idx_facts t
  show V m c main_v16 (((cfg0.win 3).blk t).view.emb (ix2 u col)) = _
  refine congrArg (V m c main_v16 : S1x512.Idx → EReal) (funext fun a => Fin.ext ?_)
  match a with
  | ⟨0, _⟩ => show win0_3.index t (0 : Fin 2) * 1 + 1 * u.val = u.val; omega
  | ⟨1, _⟩ => show win0_3.index t (1 : Fin 2) * 512 + 1 * col.val = col.val; omega

/-- The staged matrix and bias tiles hold the fused weights. -/
theorem fused (c : Dev nD) (t : Fin cfg0.N) :
    Body.Fused (iblk m c 2 t) (iblk m c 3 t) (argWf m c) (argUf m c) (argBf m c) (argWi m c) (argUi m c) (argBi m c) where
  wf k j := (blk_weights m c t _ _).trans ((congrFun (weights_eq m c) _).trans
    ((stacked_top (argWf m c) (argWi m c) (argUf m c) (argUi m c) k _).trans (beside_left _ _ k j)))
  wi k j := (blk_weights m c t _ _).trans ((congrFun (weights_eq m c) _).trans
    ((stacked_top (argWf m c) (argWi m c) (argUf m c) (argUi m c) k _).trans (beside_right _ _ k j)))
  uf k j := (blk_weights m c t _ _).trans ((congrFun (weights_eq m c) _).trans
    ((stacked_bottom (argWf m c) (argWi m c) (argUf m c) (argUi m c) k _).trans (beside_left _ _ k j)))
  ui k j := (blk_weights m c t _ _).trans ((congrFun (weights_eq m c) _).trans
    ((stacked_bottom (argWf m c) (argWi m c) (argUf m c) (argUi m c) k _).trans (beside_right _ _ k j)))
  b1 j := (blk_bias m c t _ _).trans (bias_left m c j)
  b2 j := (blk_bias m c t _ _).trans (bias_right m c j)

/-! ## What a point writes back -/

/-- WHAT POINT t WRITES BACK is row tile t of the cell. -/
theorem flushed_eq (c : Dev nD) (t : Fin cfg0.N) :
    (dats m 0 c).flushed 4 t = ((cfg0.win 4).blk t).view.read (Elt Ideal) (cellOf m c) := by
  rw [Value.flushed4]
  funext y
  show out0_4 (iblk m c 0 t) (iblk m c 1 t) (iblk m c 2 t) (iblk m c 3 t) y = cellOf m c (((cfg0.win 4).blk t).view.emb y)
  refine (congrFun (Body.out_eq (iblk m c 0 t) (iblk m c 1 t) (fused m c t)) y).trans ?_
  obtain ⟨p, col, rfl⟩ : ∃ (p : Fin 3200) (col : Fin 256), y = ix2 p col := ⟨y 0, y 1, eq_ix2 y⟩
  obtain ⟨-, -, -, -, -, -, -, -, e0, e1⟩ := idx_facts t
  have he : ((cfg0.win 4).blk t).view.emb (ix2 p col) = ix2 (rowAt t p) col := funext fun a => Fin.ext (by
    match a with
    | ⟨0, _⟩ => show win0_4.index t (0 : Fin 2) * 3200 + 1 * p.val = t.val * 3200 + p.val; omega
    | ⟨1, _⟩ => show win0_4.index t (1 : Fin 2) * 256 + 1 * col.val = col.val; omega)
  rw [he]
  have hx : Body.xrow (iblk m c 0 t) p = fun k => argX m c (ix2 (rowAt t p) k) := funext fun k => blk_x m c t p k
  have hh : Body.hrow (iblk m c 1 t) p
      = fun k => segSum (argH m c) (edgeRow (childIdx m c)) (edgePar (parentIdx m c)) (rowAt t p) k :=
    funext fun k => (blk_sums m c t p _).trans (hsum_apply m c (rowAt t p) k)
  have hc : Body.crow (iblk m c 1 t) p
      = fun k => segSum (argC m c) (edgeRow (childIdx m c)) (edgePar (parentIdx m c)) (rowAt t p) k :=
    funext fun k => (blk_sums m c t p _).trans (csum_apply m c (rowAt t p) k)
  show outRow (Body.xrow (iblk m c 0 t) p) (Body.hrow (iblk m c 1 t) p) (Body.crow (iblk m c 1 t) p)
      (argWf m c) (argUf m c) (argBf m c) (argWi m c) (argUi m c) (argBi m c) col = _
  rw [hx, hh, hc]
  rfl

/-! ## The cover and the whole array -/

theorem mem_blk (t : Fin cfg0.N) (i : S400000x256.Idx) :
    i ∈ ((cfg0.win 4).blk t).view.set ↔ ∀ a : Fin 2, win0_4.index t a * S3200x256.size a ≤ (i a).val
      ∧ (i a).val < win0_4.index t a * S3200x256.size a + S3200x256.size a := by
  show i ∈ ((View.whole main_v17).slice (win0_4.rect t)).set ↔ _
  rw [View.set_slice_whole, Rect.mem_set_unit]
  exact Iff.rfl

/-- Every index of the result is in the tile of the point its row falls in. -/
theorem cover (i : S400000x256.Idx) :
    ∃ t : Fin cfg0.N, (cfg0.win 4).flush t = true ∧ i ∈ ((cfg0.win 4).blk t).view.set := by
  have hi0 : (i 0).val < 400000 := (i 0).isLt
  have hi1 : (i 1).val < 256 := (i 1).isLt
  have ht : (i 0).val / 3200 < 125 := by omega
  refine ⟨⟨(i 0).val / 3200, ht⟩, flush0_4 _, ?_⟩
  obtain ⟨-, -, -, -, -, -, -, -, e0, e1⟩ := idx_facts ⟨(i 0).val / 3200, ht⟩
  rw [mem_blk]
  intro a
  match a with
  | ⟨0, _⟩ =>
    show win0_4.index ⟨(i 0).val / 3200, ht⟩ (0 : Fin 2) * 3200 ≤ (i 0).val
      ∧ (i 0).val < win0_4.index ⟨(i 0).val / 3200, ht⟩ (0 : Fin 2) * 3200 + 3200
    rw [e0]
    show (i 0).val / 3200 * 3200 ≤ (i 0).val ∧ (i 0).val < (i 0).val / 3200 * 3200 + 3200
    omega
  | ⟨1, _⟩ =>
    show win0_4.index ⟨(i 0).val / 3200, ht⟩ (1 : Fin 2) * 256 ≤ (i 1).val
      ∧ (i 1).val < win0_4.index ⟨(i 0).val / 3200, ht⟩ (1 : Fin 2) * 256 + 256
    rw [e1]
    omega

/-- THE RESULT ARRAY after the run is the cell over the argument arrays. -/
theorem final (c : Dev nD) : (dats m 0 c).arrAt 4 cfg0.N = cellOf m c :=
  (dats m 0 c).arrAt_eq_of_cover 4 (cellOf m c) (fun t _ => flushed_eq m c t) cover

/-- The kernel's run: the result array at the cell, the arguments unchanged. -/
theorem run : θ_run defs (onTc (τ := τ) (main (F := Ideal))) ⟨m, fun _ => 0, ρ⟩ fun r => ∀ c : Dev nD,
      r.2.mem ((c : Thread nD τ).loc main_v17) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Whole

end
-- ==== Proof.RefRead.lean ====
/-
  The reference program's result, read index by index, is the Tree-LSTM cell of the specification.

  The reference sums the children's hidden rows and memory rows separately (two row gathers, two accumulating row
  scatters over the same edges), forms the forget gate and the three iou gates from two 128-deep products each plus a
  bias, spells the logistic function as 1 / (1 + e^(−v)), and lays h' beside c'. Every step is read at an index (n, j);
  the logistic spelling is the ideal logistic function by definition, and the f32 word of 1.0 is the real 1.
-/
import proofs.«179276_j24730421691110_2_alg».proof.Proof.Gen.ReferenceIdeal.Read
import proofs.«179276_j24730421691110_2_alg».proof.Proof.SegSum

noncomputable section

open scoped BigOperators

namespace Cert.ReferenceIdeal.RefValue

open Cert.ReferenceIdeal Cert.ReferenceIdeal.Gen Cert.ReferenceIdeal.Read Idealize.ShloMosaic Idealize.ShloMosaic.ValueIdx
  Cert.TreeCell Cert.RowGather Cert.RowScatter

/-- The f32 word of 1.0 is the real number 1. -/
theorem one_word : FloatOps.ofBits (F := Ideal) .f32 0x3F800000#32 = (1 : EReal) := by
  show Ideal.ofBits .f32 0x3F800000#32 = 1
  simp [Ideal.ofBits, Ideal.ieee, -EReal.coe_mul]; norm_num

/-- 1 / (1 + e^(−v)), in the host's operations, is the logistic function of v. -/
theorem logistic_spelled (v : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf v)))
      = Ideal.logistic v := by
  rw [one_word]
  rfl

variable (x0 x1 x2 : (⟨S400000x128, .f32⟩ : BufTy).Contents (Elt Ideal))
  (x3 x4 : (⟨S400000, .i32⟩ : BufTy).Contents (Elt Ideal))
  (x5 x6 : (⟨S128x128, .f32⟩ : BufTy).Contents (Elt Ideal)) (x7 : (⟨S128, .f32⟩ : BufTy).Contents (Elt Ideal))
  (x8 x9 : (⟨S128x384, .f32⟩ : BufTy).Contents (Elt Ideal)) (x10 : (⟨S384, .f32⟩ : BufTy).Contents (Elt Ideal))

/-- The edges' child rows, as the reference computes them. -/
abbrev rows : Fin 400000 → Fin 400000 := edgeRow (val_main_v5 (F := Ideal) x3)
/-- The edges' parent indices. -/
abbrev pars : Fin 400000 → Int := edgePar (val_main_v8 (F := Ideal) x4)

/-- The children's hidden rows summed by parent. -/
theorem hsum_apply (n : Fin 400000) (k : Fin 128) :
    val_main_v9 (F := Ideal) x1 x3 x4 (ix2 n k) = segSum x1 (rows x3) (pars x4) n k := by
  unfold val_main_v9 val_main_v7 val_main_cst val_main_v6
  exact scatter_gather_128 _ _ _ x1 (val_main_v5 (F := Ideal) x3) (val_main_v8 (F := Ideal) x4) n k

/-- The children's memory rows summed by parent: the same edges, the second copy of the index computation. -/
theorem csum_apply (n : Fin 400000) (k : Fin 128) :
    val_main_v19 (F := Ideal) x2 x3 x4 (ix2 n k) = segSum x2 (rows x3) (pars x4) n k := by
  unfold val_main_v19 val_main_v17 val_main_cst_3 val_main_v16
  exact scatter_gather_128 _ _ _ x2 (val_main_v5 (F := Ideal) x3) (val_main_v8 (F := Ideal) x4) n k

/-- Node n's input row and summed hidden and memory rows. -/
abbrev xr (n : Fin 400000) : Fin 128 → EReal := fun k => x0 (ix2 n k)
abbrev hr (n : Fin 400000) : Fin 128 → EReal := fun k => segSum x1 (rows x3) (pars x4) n k
abbrev cr (n : Fin 400000) : Fin 128 → EReal := fun k => segSum x2 (rows x3) (pars x4) n k

/-- The forget gate's pre-activation. -/
theorem pre_f (n : Fin 400000) (j : Fin 128) :
    val_main_v25 (F := Ideal) x0 x1 x3 x4 x5 x6 x7 (ix2 n j) = pre (xr x0 n) (hr x1 x3 x4 n) x5 x6 x7 j := by
  rw [val_main_v25_apply, val_main_v22_apply, val_main_v20_apply, val_main_v21_apply, val_main_v24_apply,
    val_main_v23_apply]
  have L : ∀ k : Fin 128, lidx_main_v20 (ix2 n j) k = ix2 n k := fun k => funext fun a => by
    match a with
    | ⟨0, _⟩ => rfl
    | ⟨1, _⟩ => rfl
  have R : ∀ k : Fin 128, ridx_main_v20 (ix2 n j) k = ix2 k j := fun k => funext fun a => by
    match a with
    | ⟨0, _⟩ => rfl
    | ⟨1, _⟩ => rfl
  have L' : ∀ k : Fin 128, lidx_main_v21 (ix2 n j) k = ix2 n k := fun k => funext fun a => by
    match a with
    | ⟨0, _⟩ => rfl
    | ⟨1, _⟩ => rfl
  have R' : ∀ k : Fin 128, ridx_main_v21 (ix2 n j) k = ix2 k j := fun k => funext fun a => by
    match a with
    | ⟨0, _⟩ => rfl
    | ⟨1, _⟩ => rfl
  have B : idx_main_v23 (idx_main_v24 (ix2 n j)) = ix1 j := funext fun a => by
    match a with
    | ⟨0, _⟩ => rfl
  simp only [L, R, L', R', B, hsum_apply]
  rfl

/-- The iou block's pre-activations. -/
theorem pre_iou (n : Fin 400000) (j : Fin 384) :
    val_main_v37 (F := Ideal) x0 x1 x3 x4 x8 x9 x10 (ix2 n j) = pre (xr x0 n) (hr x1 x3 x4 n) x8 x9 x10 j := by
  rw [val_main_v37_apply, val_main_v34_apply, val_main_v32_apply, val_main_v33_apply, val_main_v36_apply,
    val_main_v35_apply]
  have L : ∀ k : Fin 128, lidx_main_v32 (ix2 n j) k = ix2 n k := fun k => funext fun a => by
    match a with
    | ⟨0, _⟩ => rfl
    | ⟨1, _⟩ => rfl
  have R : ∀ k : Fin 128, ridx_main_v32 (ix2 n j) k = ix2 k j := fun k => funext fun a => by
    match a with
    | ⟨0, _⟩ => rfl
    | ⟨1, _⟩ => rfl
  have L' : ∀ k : Fin 128, lidx_main_v33 (ix2 n j) k = ix2 n k := fun k => funext fun a => by
    match a with
    | ⟨0, _⟩ => rfl
    | ⟨1, _⟩ => rfl
  have R' : ∀ k : Fin 128, ridx_main_v33 (ix2 n j) k = ix2 k j := fun k => funext fun a => by
    match a with
    | ⟨0, _⟩ => rfl
    | ⟨1, _⟩ => rfl
  have B : idx_main_v35 (idx_main_v36 (ix2 n j)) = ix1 j := funext fun a => by
    match a with
    | ⟨0, _⟩ => rfl
  simp only [L, R, L', R', B, hsum_apply]
  rfl

/-- The new memory. -/
theorem cnew_apply (n : Fin 400000) (j : Fin 128) :
    val_main_v50 (F := Ideal) x0 x1 x2 x3 x4 x5 x6 x7 x8 x9 x10 (ix2 n j)
      = cNew (xr x0 n) (hr x1 x3 x4 n) (cr x2 x3 x4 n) x5 x6 x7 x8 x9 x10 j := by
  have I39 : idx_main_v39 (ix2 n j) = ix2 n (⟨j.val, by omega⟩ : Fin 384) := funext fun a => by
    match a with
    | ⟨0, _⟩ => rfl
    | ⟨1, _⟩ => rfl
  have I41 : idx_main_v41 (ix2 n j) = ix2 n (⟨256 + j.val, by omega⟩ : Fin 384) := funext fun a => by
    match a with
    | ⟨0, _⟩ => rfl
    | ⟨1, _⟩ => rfl
  rw [val_main_v50_apply, val_main_v49_apply, val_main_v38_apply, val_main_v47_apply, val_main_v46_apply,
    val_main_cst_7_apply, val_main_v45_apply, val_main_v44_apply, val_main_cst_6_apply, val_main_v43_apply,
    val_main_v42_apply, val_main_v39_apply, I39, pre_iou, val_main_v48_apply, val_main_v41_apply, I41, pre_iou,
    val_main_v31_apply, val_main_v30_apply, val_main_cst_5_apply, val_main_v29_apply, val_main_v28_apply,
    val_main_cst_4_apply, val_main_v27_apply, val_main_v26_apply, pre_f, csum_apply, logistic_spelled, logistic_spelled]
  rfl

/-- The new hidden state. -/
theorem hnew_apply (n : Fin 400000) (j : Fin 128) :
    val_main_v58 (F := Ideal) x0 x1 x2 x3 x4 x5 x6 x7 x8 x9 x10 (ix2 n j)
      = hNew (xr x0 n) (hr x1 x3 x4 n) (cr x2 x3 x4 n) x5 x6 x7 x8 x9 x10 j := by
  have I40 : idx_main_v40 (ix2 n j) = ix2 n (⟨128 + j.val, by omega⟩ : Fin 384) := funext fun a => by
    match a with
    | ⟨0, _⟩ => rfl
    | ⟨1, _⟩ => rfl
  rw [val_main_v58_apply, val_main_v56_apply, val_main_v55_apply, val_main_cst_9_apply, val_main_v54_apply,
    val_main_v53_apply, val_main_cst_8_apply, val_main_v52_apply, val_main_v51_apply, val_main_v40_apply, I40, pre_iou,
    val_main_v57_apply, cnew_apply, logistic_spelled]
  rfl

/-- THE REFERENCE'S RESULT is the cell of the specification. -/
theorem result_eq :
    val_main_v59 (F := Ideal) x0 x1 x2 x3 x4 x5 x6 x7 x8 x9 x10
      = G x0 x1 x2 (rows x3) (pars x4) x5 x6 x7 x8 x9 x10 := by
  funext i
  obtain ⟨n, col, rfl⟩ : ∃ (n : Fin 400000) (col : Fin 256), i = ix2 n col := ⟨i 0, i 1, eq_ix2 i⟩
  unfold val_main_v59
  show _ = outRow (xr x0 n) (hr x1 x3 x4 n) (cr x2 x3 x4 n) x5 x6 x7 x8 x9 x10 col
  by_cases hcol : col.val < 128
  · rw [outRow_left _ _ _ _ _ _ _ _ _ (⟨col.val, hcol⟩ : Fin 128) col rfl]
    refine (concatenate_pair_apply_left (s₁ := S400000x128) (s₂ := S400000x128) (1 : Fin 2) _ _ _ (ix2 n col) rfl
      (ix2 n (⟨col.val, hcol⟩ : Fin 128)) (fun b => ?_)).trans (hnew_apply x0 x1 x2 x3 x4 x5 x6 x7 x8 x9 x10 n _)
    match b with
    | ⟨0, _⟩ => rfl
    | ⟨1, _⟩ => rfl
  · rw [outRow_right _ _ _ _ _ _ _ _ _ (⟨col.val - 128, by omega⟩ : Fin 128) col (by simp only; omega)]
    refine (concatenate_pair_apply_right (s₁ := S400000x128) (s₂ := S400000x128) (1 : Fin 2) _ _ _ (ix2 n col) rfl rfl
      (ix2 n (⟨col.val - 128, by omega⟩ : Fin 128)) (fun b hb => ?_) ?_).trans
      (cnew_apply x0 x1 x2 x3 x4 x5 x6 x7 x8 x9 x10 n _)
    · match b with
      | ⟨0, _⟩ => rfl
      | ⟨1, _⟩ => exact absurd rfl hb
    · show col.val - 128 + 128 = col.val
      omega

end Cert.ReferenceIdeal.RefValue

end
-- ==== Proof.lean ====
/-
  A Child-Sum Tree-LSTM cell: the tiled kernel against the plain reference, equal on the extended reals.

  Both programs sum each node's children's hidden rows h and memory rows c (edge e adds row child(e) into row
  parent(e)), form the forget gate f and the input, output and update gates i, o, u as affine maps of the node's input
  row x and its summed hidden row h̃, and return h' = σ(o)·tanh(c') beside c' = σ(i)·tanh(u) + σ(f)·c̃.

  The kernel's side differs in arrangement only. It sums the children's rows once, on h laid beside c (256 columns):
  a row gather and an accumulating row scatter act column by column on the same edges, so the first 128 columns of that
  sum are h̃ and the last 128 are c̃. It multiplies [x | h̃] by the 256 × 512 matrix [[W_f | W_iou], [U_f | U_iou]] in
  one contraction, which splits at 128 into x·W + h̃·U — a regrouping of a finite sum, valid for all extended reals,
  so no finiteness of the inputs is used. Its changes of float format are the identity on extended reals, its logistic
  operation is 1 / (1 + e^(−v)) as the reference spells it, and its 125 row tiles of 3200 rows cover the 400000 rows.

  The three frames are the generated ones (the reference's is its generated run with the result dropped); the
  idealization rewrote nothing, so its statement is `True`.
-/
import proofs.«179276_j24730421691110_2_alg».proof.Defs
import proofs.«179276_j24730421691110_2_alg».proof.Proof.Gen.Kernel
import proofs.«179276_j24730421691110_2_alg».proof.Proof.Gen.Kernel.Skeleton
import proofs.«179276_j24730421691110_2_alg».proof.Proof.Gen.Kernel.Launch
import proofs.«179276_j24730421691110_2_alg».proof.Proof.Gen.Kernel.Points
import proofs.«179276_j24730421691110_2_alg».proof.Proof.Gen.Kernel.Frame
import proofs.«179276_j24730421691110_2_alg».proof.Proof.Gen.KernelIdeal
import proofs.«179276_j24730421691110_2_alg».proof.Proof.Gen.KernelIdeal.Skeleton
import proofs.«179276_j24730421691110_2_alg».proof.Proof.Gen.KernelIdeal.Launch
import proofs.«179276_j24730421691110_2_alg».proof.Proof.Gen.KernelIdeal.Points
import proofs.«179276_j24730421691110_2_alg».proof.Proof.Gen.KernelIdeal.Frame
import proofs.«179276_j24730421691110_2_alg».proof.Proof.Gen.ReferenceIdeal
import proofs.«179276_j24730421691110_2_alg».proof.Proof.Gen.Pre_finite_inputs
import proofs.«179276_j24730421691110_2_alg».proof.Proof.Gen.KernelIdeal.Value
import proofs.«179276_j24730421691110_2_alg».proof.Proof.Gen.ReferenceIdeal.Run
import proofs.«179276_j24730421691110_2_alg».proof.Proof.Gen.ReferenceIdeal.Read
import proofs.«179276_j24730421691110_2_alg».proof.Proof.KernelBlocks
import proofs.«179276_j24730421691110_2_alg».proof.Proof.RefRead
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the Tree-LSTM cell of those arguments. -/
theorem algebraic : Cert.algebraic_KernelIdeal_ReferenceIdeal := by
  intro m ρ m' ρ' _ hagree
  refine ⟨fun c => Cert.KernelIdeal.Whole.cellOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.RefValue.result_eq]
  obtain ⟨h0, h1, h2, h3, h4, h5, h6, h7, h8, h9, h10⟩ := hagree c
  rw [h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
